-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S262144x128 .f32) (main_arg1 : FVec F S256x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S262144x128 : Shape := ⟨2, ![262144, 128]⟩
abbrev S256x128 : Shape := ⟨2, ![256, 128]⟩
abbrev S262144x256 : Shape := ⟨2, ![262144, 256]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S262144x256, .f32⟩
  | .local _ .vmem, ⟨0, _⟩ => ⟨S4096x128, .f32⟩
  | .local _ .vmem, ⟨1, _⟩ => ⟨S4096x128, .f32⟩
  | .local _ .vmem, ⟨2, _⟩ => ⟨S256x128, .f32⟩
  | .local _ .vmem, ⟨3, _⟩ => ⟨S4096x256, .f32⟩
  | .local _ .vmem, ⟨4, _⟩ => ⟨S4096x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x128_S4096x128_0_0 : ∀ a, (![0, 0] : Fin 2 → Nat) a + S4096x128.size a ≤ S4096x128.size a
  h_S4096x128 : 0 < S4096x128.numel
  inb_S256x128_S256x128_0_0 : ∀ a, (![0, 0] : Fin 2 → Nat) a + S256x128.size a ≤ S256x128.size a
  h_S256x128 : 0 < S256x128.numel
  reduces_S4096x128_S4096 : S4096x128.Reduces [1] S4096
  shapeCasts_S4096_S4096x1 : S4096.ShapeCasts S4096x1
  reduces_S256x128_S256 : S256x128.Reduces [1] S256
  shapeCasts_S256_S256x1 : S256.ShapeCasts S256x1
  transposes_S256x1_p1_0_S1x256 : S256x1.Transposes [1, 0] S1x256
  bitsLt_bf16_f32 : FTy.bits .bf16 < FTy.bits .f32
  broadcasts_S4096x1_S4096x256 : S4096x1.Broadcasts S4096x256
  broadcasts_S1x256_S4096x256 : S1x256.Broadcasts S4096x256
  reduces_S4096x256_S4096 : S4096x256.Reduces [1] S4096
  inb_S4096x256_S4096x256_0_0 : ∀ a, (![0, 0] : Fin 2 → Nat) a + S4096x256.size a ≤ S4096x256.size a
  h_S4096x256 : 0 < S4096x256.numel
  dot_S4096x128_S256x128_S4096x256_1_1_0_0_n_n_wf : DotDims.WF S4096x128 S256x128 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S_ : Shape := ⟨0, ![]⟩
abbrev S262144 : Shape := ⟨1, ![262144]⟩
abbrev S262144x1 : Shape := ⟨2, ![262144, 1]⟩
abbrev S256 : Shape := ⟨1, ![256]⟩
abbrev S128x256 : Shape := ⟨2, ![128, 256]⟩
abbrev S262144x256 : Shape := ⟨2, ![262144, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S262144x128, .f32⟩
  | .hbm, ⟨3, _⟩ => ⟨S_, .f32⟩
  | .hbm, ⟨4, _⟩ => ⟨S262144, .f32⟩
  | .hbm, ⟨5, _⟩ => ⟨S262144x1, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S128x256, .f32⟩
  | .hbm, ⟨10, _⟩ => ⟨S262144x256, .f32⟩
  | .hbm, ⟨11, _⟩ => ⟨S1x256, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S262144x256, .f32⟩
  | .hbm, ⟨24, _⟩ => ⟨S262144x256, .f32⟩
  | .hbm, ⟨25, _⟩ => ⟨S_, .f32⟩
  | .hbm, ⟨26, _⟩ => ⟨S262144x256, .f32⟩
  | .hbm, ⟨27, _⟩ => ⟨S262144x256, .f32⟩
  | .hbm, ⟨28, _⟩ => ⟨S_, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144, .f32⟩
  | .hbm, ⟨33, _⟩ => ⟨S262144x1, .f32⟩
  | .hbm, ⟨34, _⟩ => ⟨S262144x256, .f32⟩
  | .hbm, ⟨35, _⟩ => ⟨S262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S256x128_S256_d1 : S256x128.ReducesTo [1] S256
  transposes_S256x128_S128x256_1_0 : S256x128.Transposes [1, 0] S128x256
  bcast_S256_S1x256_1 : S256.BroadcastsInDim S1x256 (![1] : Fin 1 → Fin S1x256.rank)
  bcast_S262144x1_S262144x256_0_1 : S262144x1.BroadcastsInDim S262144x256 (![0, 1] : Fin 2 → Fin S262144x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  reducesTo_S262144x256_S262144_d1 : S262144x256.ReducesTo [1] S262144
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.Spec.lean ====
/-
  The soft assignment of a point to 256 centres, on the extended reals.

  For a point `x` and centres `C k` in 128 coordinates, the squared distance is spelt expanded,
  `|x|² + |C k|² − 2 · (x · C k)`; the student-t kernel of it is `1 / (1 + d / 1)`; and the assignment of `x` to centre
  `k` is that kernel divided by the sum of the kernels over all 256 centres. Every operation is the extended reals'
  own (the quotient is `Ideal.div`), the constants `1` and `2` are kept as the f32 patterns that denote them, and
  the order of the operations is the one both programs use, so no law of arithmetic is needed to compare them —
  except one: a power with exponent `1` is the identity on every extended real, the infinities included.
-/
import Idealize.ShloMosaic.PureOps.Ideal
import Idealize.ShloMosaic.Lib.IdealHost
import Idealize.ShloMosaic.Lib.ValueIdx

noncomputable section

namespace Cert.SoftAssign

open Idealize.ShloMosaic Idealize.ShloMosaic.ValueIdx
open scoped BigOperators

/-- The f32 patterns of `1.0` and `2.0`, as the extended reals they denote. -/
abbrev one : EReal := Ideal.ofBits .f32 0x3F800000#32
abbrev two : EReal := Ideal.ofBits .f32 0x40000000#32

/-- The squared length of a vector of 128 coordinates. -/
def sqLen (v : Fin 128 → EReal) : EReal := ∑ d : Fin 128, v d * v d

/-- The student-t kernel of the squared distance from `x` to centre `k`, the distance spelt
    `|x|² + |C k|² − 2 · (x · C k)`. -/
def kern (x : Fin 128 → EReal) (C : Fin 256 → Fin 128 → EReal) (k : Fin 256) : EReal :=
  Ideal.div one (one + Ideal.div (sqLen x + sqLen (C k) - two * ∑ d : Fin 128, x d * C k d) one)

/-- The soft assignment of `x` to centre `k`: its kernel over the sum of the 256 kernels. -/
def soft (x : Fin 128 → EReal) (C : Fin 256 → Fin 128 → EReal) (k : Fin 256) : EReal :=
  Ideal.div (kern x C k) (∑ k' : Fin 256, kern x C k')

/-- The whole result, `[262144, 256]`, from the points `[262144, 128]` and the centres `[256, 128]`: entry `(b, k)` is
    the soft assignment of point `b` to centre `k`. It depends on row `b` of the points only, and on all the centres. -/
def result (X : (⟨2, ![262144, 128]⟩ : Shape).Idx → EReal) (C : (⟨2, ![256, 128]⟩ : Shape).Idx → EReal) :
    (⟨2, ![262144, 256]⟩ : Shape).Idx → EReal :=
  fun i => soft (fun d => X (ix2 (⟨(i 0).val, (i 0).isLt⟩ : Fin 262144) d)) (fun k d => C (ix2 k d))
    (⟨(i 1).val, (i 1).isLt⟩ : Fin 256)

/-- The result at an index written by its coordinates. -/
theorem result_ix2 (X : (⟨2, ![262144, 128]⟩ : Shape).Idx → EReal) (C : (⟨2, ![256, 128]⟩ : Shape).Idx → EReal)
    (b : Fin 262144) (k : Fin 256) :
    result X C (ix2 b k) = soft (fun d => X (ix2 b d)) (fun k d => C (ix2 k d)) k := rfl

/-- A power with exponent `1` is the identity on the extended reals: `⊥` stays `⊥`, `⊤` stays `⊤` (the exponent is
    positive), and on a real `r` it is `r ^ 1 = r`, whatever the sign of `r`. -/
theorem pow_one (a : EReal) : Ideal.pow a one = a := by
  show Ideal.pow a (Ideal.ofBits .f32 0x3F800000#32) = a
  rw [Ideal.ofBits_one_f32]
  induction a using EReal.rec with
  | bot => rfl
  | top => rw [Ideal.pow_top, if_pos zero_lt_one]
  | coe r =>
    rw [← EReal.coe_one, Ideal.pow_coe_coe]
    exact congrArg _ (Real.rpow_one r)

end Cert.SoftAssign

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.KernelBody.lean ====
/-
  What the kernel's body computes from a block of 4096 points and the 256 centres, entry by entry.

  The body's one stored value is cut into its stages — the points' squared lengths kept as a column, the centres'
  squared lengths laid as a row, the inner products of points with centres (a matrix product into a zero
  accumulator, the operands passed through a change of float format, which is the identity on the extended reals),
  the student-t kernels, and the kernels divided by their row sums — and each stage is read at an entry `(p, k)`:
  the column at `(p, 0)` is the squared length of point `p`, the row at `(0, k)` that of centre `k`, the product at
  `(p, k)` is the sum over the 128 coordinates of point `p` times centre `k`, and the lane sum of the kernels at row
  `p` is the sum over the 256 centres. So entry `(p, q)` of the block is the soft assignment of point `p` to centre
  `q`: it reads row `p` of the points and every centre, and nothing else.
-/
import proofs.«170498_j20873541059056_1_alg».proof.Proof.Gen.KernelIdeal.Skeleton
import proofs.«170498_j20873541059056_1_alg».proof.Proof.Spec
import proofs.«170498_j20873541059056_1_alg».proof.Proof.LibKeepdims
import Idealize.ShloMosaic.Lib.ValueLayout
import Idealize.ShloMosaic.Lib.ValueIdx
import Idealize.ShloMosaic.PureOps.Ideal.Laws

noncomputable section

namespace Cert.KernelIdeal.SoftValue

open Cert.KernelIdeal Cert.KernelIdeal.Gen Idealize.ShloMosaic Idealize.ShloMosaic.ValueIdx
open Cert.SoftAssign Cert.Keepdims
open scoped BigOperators

variable (x0 : FVec Ideal S4096x128 .f32) (x1 : FVec Ideal S256x128 .f32)

/-! ## The stages of the stored value -/

/-- The squared lengths of the block's points, one per row, kept as a column. -/
def ptSq : FVec Ideal S4096x1 .f32 :=
  shapeCast S4096x1 (multiReduction .add [1] S4096 (mulf x0 x0) 0x00000000#32 reduces_S4096x128_S4096 (.inl rfl) rfl)
    shapeCasts_S4096_S4096x1

/-- The squared lengths of the centres, laid as a row. -/
def ctrSq : FVec Ideal S1x256 .f32 :=
  transpose S1x256 [1, 0]
    (shapeCast S256x1 (multiReduction .add [1] S256 (mulf x1 x1) 0x00000000#32 reduces_S256x128_S256 (.inl rfl) rfl)
      shapeCasts_S256_S256x1)
    transposes_S256x1_p1_0_S1x256

/-- The inner products of the block's points with the centres. -/
def cross : FVec Ideal S4096x256 .f32 :=
  matmul dot_S4096x128_S256x128_S4096x256_1_1_0_0_n_n none (truncf .bf16 x0 bitsLt_bf16_f32)
    (truncf .bf16 x1 bitsLt_bf16_f32) (constant (F := Ideal) S4096x256 .f32 0x00000000#32)

/-- The student-t kernels of the expanded squared distances. -/
def kernels : FVec Ideal S4096x256 .f32 :=
  divf (broadcast S4096x256 (Scalar.ofBits (F := Ideal) .f32 0x3F800000#32))
    (addf (broadcast S4096x256 (Scalar.ofBits (F := Ideal) .f32 0x3F800000#32))
      (divf
        (subf
          (addf (broadcastTo S4096x256 (ptSq x0) broadcasts_S4096x1_S4096x256)
            (broadcastTo S4096x256 (ctrSq x1) broadcasts_S1x256_S4096x256))
          (mulf (broadcast S4096x256 (Scalar.ofBits (F := Ideal) .f32 0x40000000#32)) (cross x0 x1)))
        (broadcast S4096x256 (Scalar.ofBits (F := Ideal) .f32 0x3F800000#32))))

/-- The kernels' row sums, kept as a column. -/
def kernelSums : FVec Ideal S4096x1 .f32 :=
  shapeCast S4096x1
    (multiReduction .add [1] S4096 (kernels x0 x1) 0x00000000#32 reduces_S4096x256_S4096 (.inl rfl) rfl)
    shapeCasts_S4096_S4096x1

/-- The kernels over their row sums: what the body stores. -/
def assigned : FVec Ideal S4096x256 .f32 :=
  divf (kernels x0 x1) (broadcastTo S4096x256 (kernelSums x0 x1) broadcasts_S4096x1_S4096x256)

/-- The body's stored value is these stages composed. -/
theorem pay_eq : k0_pay1 (F := Ideal) x0 x1 = assigned x0 x1 := rfl

/-! ## Each stage at an entry -/

/-- The column's entry in row `p` is the squared length of point `p`. -/
theorem ptSq_apply (p : Fin 4096) (u : Fin 1) : ptSq x0 (ix2 p u) = sqLen (fun d => x0 (ix2 p d)) := by
  unfold ptSq
  refine (shapeCast_a_a1_apply _ _ p u).trans ?_
  exact laneSum_apply _ _ _ _ p

/-- The row's entry in column `k` is the squared length of centre `k`. -/
theorem ctrSq_apply (u : Fin 1) (k : Fin 256) : ctrSq x1 (ix2 u k) = sqLen (fun d => x1 (ix2 k d)) := by
  unfold ctrSq
  refine (transpose_ix2_apply _ _ u k).trans ?_
  refine (shapeCast_a_a1_apply _ _ k u).trans ?_
  exact laneSum_apply _ _ _ _ k

/-- The matrix product's dimension numbers: both operands contract their axis 1. -/
abbrev D : DotDims S4096x128 S256x128 S4096x256 := dot_S4096x128_S256x128_S4096x256_1_1_0_0_n_n

theorem lhs_row (i : S4096x256.Idx) (q : D.contr.Idx) : (D.lhsIdx i q 0).val = (i 0).val := by
  unfold DotDims.lhsIdx
  rw [dif_neg (show ¬(0 : Fin S4096x128.rank) ∈ D.lhsBatch by decide),
    dif_pos (show (0 : Fin S4096x128.rank) ∈ D.lhsNonContracting by decide)]
  rfl
theorem lhs_col (i : S4096x256.Idx) (q : D.contr.Idx) : (D.lhsIdx i q 1).val = (q ⟨0, by decide⟩).val :=
  D.lhsIdx_val_of_single rfl i q
theorem rhs_row (i : S4096x256.Idx) (q : D.contr.Idx) : (D.rhsIdx i q 0).val = (i 1).val := by
  unfold DotDims.rhsIdx
  rw [dif_neg (show ¬(0 : Fin S256x128.rank) ∈ D.rhsBatch by decide),
    dif_pos (show (0 : Fin S256x128.rank) ∈ D.rhsNonContracting by decide)]
  rfl
theorem rhs_col (i : S4096x256.Idx) (q : D.contr.Idx) : (D.rhsIdx i q 1).val = (q ⟨0, by decide⟩).val :=
  D.rhsIdx_val_of_single rfl i q

/-- The product's entry `(p, k)` is the inner product of point `p` with centre `k`: the sum over the one contracted
    axis, re-indexed by its 128 coordinates. -/
theorem cross_apply (p : Fin 4096) (k : Fin 256) :
    cross x0 x1 (ix2 p k) = ∑ d : Fin 128, x0 (ix2 p d) * x1 (ix2 k d) := by
  unfold cross
  refine (Ideal.matmul_constant_zero_apply D none _ _ (ix2 p k)).trans ?_
  rw [← Equiv.sum_comp (contrEquiv1 D 128 rfl rfl).symm]
  refine Finset.sum_congr rfl fun d _ => ?_
  have hk := contrEquiv1_symm_val D 128 rfl rfl d
  have el : D.lhsIdx (ix2 p k) ((contrEquiv1 D 128 rfl rfl).symm d) = ix2 p d := funext fun a => Fin.ext (by
    match a with
    | ⟨0, _⟩ => exact lhs_row _ _
    | ⟨1, _⟩ => exact (lhs_col _ _).trans hk)
  have er : D.rhsIdx (ix2 p k) ((contrEquiv1 D 128 rfl rfl).symm d) = ix2 k d := funext fun a => Fin.ext (by
    match a with
    | ⟨0, _⟩ => exact rhs_row _ _
    | ⟨1, _⟩ => exact (rhs_col _ _).trans hk)
  rw [el, er]
  rfl

/-- The kernel at `(p, k)` is the student-t kernel of point `p` and centre `k`. -/
theorem kernels_apply (p : Fin 4096) (k : Fin 256) :
    kernels x0 x1 (ix2 p k) = kern (fun d => x0 (ix2 p d)) (fun k d => x1 (ix2 k d)) k := by
  have e1 := (broadcastTo_a1_ab_apply (ptSq x0) broadcasts_S4096x1_S4096x256 p k).trans (ptSq_apply x0 p 0)
  have e2 := (broadcastTo_1b_ab_apply (ctrSq x1) broadcasts_S1x256_S4096x256 p k).trans (ctrSq_apply x1 0 k)
  have e3 := cross_apply x0 x1 p k
  unfold kernels kern
  show Ideal.div one (one + Ideal.div
      (broadcastTo S4096x256 (ptSq x0) broadcasts_S4096x1_S4096x256 (ix2 p k)
        + broadcastTo S4096x256 (ctrSq x1) broadcasts_S1x256_S4096x256 (ix2 p k)
        - two * cross x0 x1 (ix2 p k)) one) = _
  rw [e1, e2, e3]

/-- The kernels' row sum at row `p` is the sum over the 256 centres. -/
theorem kernelSums_apply (p : Fin 4096) (u : Fin 1) :
    kernelSums x0 x1 (ix2 p u) = ∑ k : Fin 256, kern (fun d => x0 (ix2 p d)) (fun k d => x1 (ix2 k d)) k := by
  unfold kernelSums
  refine (shapeCast_a_a1_apply _ _ p u).trans ?_
  refine (laneSum_apply _ _ _ _ p).trans ?_
  exact Finset.sum_congr rfl fun k _ => kernels_apply x0 x1 p k

/-- Entry `(p, q)` of what the body stores is the soft assignment of point `p` to centre `q`. -/
theorem assigned_apply (p : Fin 4096) (q : Fin 256) :
    assigned x0 x1 (ix2 p q) = soft (fun d => x0 (ix2 p d)) (fun k d => x1 (ix2 k d)) q := by
  have e1 := (broadcastTo_a1_ab_apply (kernelSums x0 x1) broadcasts_S4096x1_S4096x256 p q).trans
    (kernelSums_apply x0 x1 p 0)
  have e2 := kernels_apply x0 x1 p q
  unfold assigned soft
  show Ideal.div (kernels x0 x1 (ix2 p q))
      (broadcastTo S4096x256 (kernelSums x0 x1) broadcasts_S4096x1_S4096x256 (ix2 p q)) = _
  rw [e1, e2]

/-- The body's stored value at `(p, q)`. -/
theorem pay_apply (p : Fin 4096) (q : Fin 256) :
    k0_pay1 (F := Ideal) x0 x1 (ix2 p q) = soft (fun d => x0 (ix2 p d)) (fun k d => x1 (ix2 k d)) q :=
  (congrFun (pay_eq x0 x1) (ix2 p q)).trans (assigned_apply x0 x1 p q)

end Cert.KernelIdeal.SoftValue

end
-- ==== Proof.KernelValue.lean ====
/-
  From the kernel's 64 blocks to its whole result.

  Grid point `t` stages rows `4096 t … 4096 t + 4095` of the points, all 256 centres, and writes back rows
  `4096 t … 4096 t + 4095` of the result, all 256 columns. Entry `(p, q)` of what it writes is the soft assignment
  of the block's point `p` to centre `q` — and the block's point `p` is point `4096 t + p` of the argument, the
  block's centres are the argument's. So the block written at `t` is block `t` of ONE function of the two
  arguments, the soft assignment of every point to every centre; row `r` of the result lies in the block of
  point `r / 4096`, so the 64 blocks cover the result, which therefore ends holding that function.
-/
import proofs.«170498_j20873541059056_1_alg».proof.Proof.Gen.KernelIdeal.Value
import proofs.«170498_j20873541059056_1_alg».proof.Proof.KernelBody
import proofs.«170498_j20873541059056_1_alg».proof.Proof.Spec
import Idealize.ShloMosaic.Lib.Pipeline.Value
import Idealize.ShloMosaic.Lib.ValueIdx

noncomputable section

namespace Cert.KernelIdeal.SoftRun

open Cert.KernelIdeal Cert.KernelIdeal.Gen Idealize.ShloMosaic Idealize.ShloMosaic.TcCoe Idealize.SL.Sem
open Idealize.ShloMosaic.ValueIdx
open Idealize.ShloMosaic.Pipeline (Dat)
open Cert.SoftAssign Cert.KernelIdeal.SoftValue

variable (m : (ℓ : Loc nD τ sig) → Buf (Elt Ideal) ℓ) (ρ : Dev nD → PrngReg)

theorem hz : (![0, 0] : Fin 2 → Nat) = fun _ => 0 := funext fun a => by fin_cases a <;> rfl

/-- The three index maps over the 64 grid points: the points' window and the result's window are at block `(t, 0)`,
    the centres' window always at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole result as one function of the two arguments as launched. -/
abbrev whole (c : Dev nD) : S262144x256.Idx → EReal :=
  result (m ((c : Thread nD τ).loc main_arg0)) (m ((c : Thread nD τ).loc main_arg1))

/-- Point `p` of the block staged at `t` is point `4096 t + p` of the argument. -/
theorem ptBlk_apply (c : Dev nD) (t : Fin cfg0.N) (p : Fin 4096) (d : Fin 128) (b : Fin 262144)
    (hb : b.val = t.val * 4096 + p.val) :
    (iblk m c 0 t : FVec Ideal S4096x128 .f32) (ix2 p d)
      = (m ((c : Thread nD τ).loc main_arg0) : S262144x128.Idx → EReal) (ix2 b d) := by
  obtain ⟨e0, e1, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 4096 + 1 * p.val = b.val; rw [e0, hb]; omega
  | ⟨1, _⟩ => show win0_0.index t (1 : Fin 2) * 128 + 1 * d.val = d.val; rw [e1]; omega

/-- The centres staged at any point are the argument's. -/
theorem ctrBlk_apply (c : Dev nD) (t : Fin cfg0.N) (k : Fin 256) (d : Fin 128) :
    (iblk m c 1 t : FVec Ideal S256x128 .f32) (ix2 k d)
      = (m ((c : Thread nD τ).loc main_arg1) : S256x128.Idx → EReal) (ix2 k d) := by
  obtain ⟨-, -, e2, e3, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * d.val = d.val; rw [e3]; omega

/-- Entry `(p, q)` of the result's block at `t` sits in the result at `(4096 t + p, q)`. -/
theorem outBlk_emb (t : Fin cfg0.N) (p : Fin 4096) (q : Fin 256) (b : Fin 262144)
    (hb : b.val = t.val * 4096 + p.val) :
    (((cfg0.win 2).blk t).view.emb (ix2 p q) : S262144x256.Idx) = ix2 b q := by
  obtain ⟨-, -, -, -, e4, e5⟩ := idx_facts t
  funext a
  apply Fin.ext
  match a with
  | ⟨0, _⟩ => show win0_2.index t (0 : Fin 2) * 4096 + 1 * p.val = b.val; rw [e4, hb]
              omega
  | ⟨1, _⟩ => show win0_2.index t (1 : Fin 2) * 256 + 1 * q.val = q.val; rw [e5]; omega

/-- WHAT POINT `t` WRITES BACK is block `t` of the whole result. -/
theorem flushed_eq (c : Dev nD) (t : Fin cfg0.N) :
    (dats m 0 c).flushed 2 t = ((cfg0.win 2).blk t).view.read (Elt Ideal) (whole m c) := by
  have hN : cfg0.N = 64 := N_0
  rw [Cert.KernelIdeal.Value.flushed2]
  unfold out0_2
  rw [View.canon_unit_zero hz]
  simp only [View.ld_unit_zero (S := S4096x128) hz, View.ld_unit_zero (S := S256x128) hz]
  funext j
  obtain ⟨p, q, rfl⟩ : ∃ (p : Fin 4096) (q : Fin 256), j = ix2 p q := ⟨j 0, j 1, eq_ix2 j⟩
  have ht : t.val < 64 := hN ▸ t.isLt
  obtain ⟨b, hb⟩ : ∃ b : Fin 262144, b.val = t.val * 4096 + p.val :=
    ⟨⟨t.val * 4096 + p.val, by have := p.isLt; omega⟩, rfl⟩
  show k0_pay1 (F := Ideal) (iblk m c 0 t) (iblk m c 1 t) (ix2 p q)
    = whole m c (((cfg0.win 2).blk t).view.emb (ix2 p q))
  rw [outBlk_emb t p q b hb]
  refine (pay_apply (iblk m c 0 t) (iblk m c 1 t) p q).trans ?_
  show _ = soft (fun d => (m ((c : Thread nD τ).loc main_arg0) : S262144x128.Idx → EReal) (ix2 b d))
    (fun k d => (m ((c : Thread nD τ).loc main_arg1) : S256x128.Idx → EReal) (ix2 k d)) q
  have hx : (fun d : Fin 128 => (iblk m c 0 t : FVec Ideal S4096x128 .f32) (ix2 p d))
      = fun d => (m ((c : Thread nD τ).loc main_arg0) : S262144x128.Idx → EReal) (ix2 b d) :=
    funext fun d => ptBlk_apply m c t p d b hb
  have hc : (fun (k : Fin 256) (d : Fin 128) => (iblk m c 1 t : FVec Ideal S256x128 .f32) (ix2 k d))
      = fun k d => (m ((c : Thread nD τ).loc main_arg1) : S256x128.Idx → EReal) (ix2 k d) :=
    funext fun k => funext fun d => ctrBlk_apply m c t k d
  rw [hx, hc]

/-- An index of the result is in point `t`'s block iff each coordinate is in the block's range on its axis. -/
theorem mem_blk (t : Fin cfg0.N) (i : S262144x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v0).slice (win0_2.rect t)).set ↔ _
  rw [View.set_slice_whole, Rect.mem_set_unit]
  exact Iff.rfl

/-- Row `r` of the result is in the block of point `r / 4096`: the 64 blocks cover the result. -/
theorem cover (i : S262144x256.Idx) :
    ∃ t : Fin cfg0.N, (cfg0.win 2).flush t = true ∧ i ∈ ((cfg0.win 2).blk t).view.set := by
  have hN : cfg0.N = 64 := N_0
  have hi0 : (i 0).val < 262144 := (i 0).isLt
  have hi1 : (i 1).val < 256 := (i 1).isLt
  obtain ⟨t, ht⟩ : ∃ t : Fin cfg0.N, t.val = (i 0).val / 4096 :=
    ⟨⟨(i 0).val / 4096, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    rw [e4, ht]; omega
  | ⟨1, _⟩ =>
    show win0_2.index t (1 : Fin 2) * 256 ≤ (i 1).val ∧ (i 1).val < win0_2.index t (1 : Fin 2) * 256 + 256
    rw [e5]; omega

/-- THE RESULT ARRAY after the run is the soft assignment of every point to every centre. -/
theorem final (c : Dev nD) : (dats m 0 c).arrAt 2 cfg0.N = whole m c :=
  (dats m 0 c).arrAt_eq_of_cover 2 (whole m c) (fun t _ => flushed_eq m c t) cover

/-- The kernel's run, read: the result at that function of the arguments, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.SoftRun

end
-- ==== Proof.RefValue.lean ====
/-
  What the reference computes, entry by entry: the same soft assignment.

  The reference's operations are read one at a time at an entry `(b, k)` of the result. Its two host sums start
  from the zero pattern, which adds nothing; the sums' and the product's composed index functions are the plain
  coordinates — row `b` of the points, row `k` of the centres (the transposed centres at `(d, k)` are the centres
  at `(k, d)`) —; the constants are the same patterns the kernel uses. The one operation the kernel does not have,
  the power with exponent `1.0`, is the identity on the extended reals. So the kernel at `(b, k)` is the student-t
  kernel of point `b` and centre `k`, and the result the soft assignment of `b` to `k`.
-/
import proofs.«170498_j20873541059056_1_alg».proof.Proof.Gen.ReferenceIdeal.Read
import proofs.«170498_j20873541059056_1_alg».proof.Proof.Spec
import Idealize.ShloMosaic.Lib.ValueIdx
import Idealize.ShloMosaic.PureOps.Ideal.Laws

noncomputable section

namespace Cert.ReferenceIdeal.SoftValue

open Cert.ReferenceIdeal Cert.ReferenceIdeal.Read Idealize.ShloMosaic Idealize.ShloMosaic.ValueIdx
open Cert.SoftAssign
open scoped BigOperators

variable (X : (⟨S262144x128, .f32⟩ : BufTy).Contents (Elt Ideal)) (C : (⟨S256x128, .f32⟩ : BufTy).Contents (Elt Ideal))

/-- The reference's kernel (after its power with exponent `1.0`) at `(b, k)` is the student-t kernel of point `b` and
    centre `k`. -/
theorem kern_apply (b : Fin 262144) (k : Fin 256) :
    val_main_v21 (F := Ideal) X C (ix2 b k) = kern (fun d => X (ix2 b d)) (fun k d => C (ix2 k d)) k := by
  have i8 : idx_main_v2 (idx_main_v8 (ix2 b k)) = ix1 b :=
    funext fun a => Fin.ext (by match a with | ⟨0, _⟩ => rfl)
  have i1 : ∀ d : Fin 128, idx_main_v1 (ix1 b) d = ix2 b d := fun d =>
    funext fun a => Fin.ext (by match a with | ⟨0, _⟩ => rfl | ⟨1, _⟩ => rfl)
  have i9 : idx_main_v7 (idx_main_v9 (ix2 b k)) = ix1 k :=
    funext fun a => Fin.ext (by match a with | ⟨0, _⟩ => rfl)
  have i4 : ∀ d : Fin 128, idx_main_v4 (ix1 k) d = ix2 k d := fun d =>
    funext fun a => Fin.ext (by match a with | ⟨0, _⟩ => rfl | ⟨1, _⟩ => rfl)
  have il : ∀ d : Fin 128, lidx_main_v6 (ix2 b k) d = ix2 b d := fun d =>
    funext fun a => Fin.ext (by match a with | ⟨0, _⟩ => rfl | ⟨1, _⟩ => rfl)
  have ir : ∀ d : Fin 128, idx_main_v5 (ridx_main_v6 (ix2 b k) d) = ix2 k d := fun d =>
    funext fun a => Fin.ext (by match a with | ⟨0, _⟩ => rfl | ⟨1, _⟩ => rfl)
  rw [val_main_v21_apply, val_main_v19_apply, val_main_v17_apply, val_main_v15_apply, val_main_v13_apply,
    val_main_v10_apply, val_main_v12_apply, val_main_v6_apply, val_main_v8_apply, val_main_v2_apply,
    val_main_v1_apply, val_main_v9_apply, val_main_v7_apply, val_main_v4_apply, val_main_v20_apply,
    val_main_v18_apply, val_main_v16_apply, val_main_v14_apply, val_main_v11_apply, i8, i9]
  simp only [val_main_v5_apply, val_main_v0_apply, val_main_v3_apply, val_main_cst_apply, val_main_cst_0_apply,
    val_main_cst_1_apply, val_main_cst_2_apply, val_main_cst_3_apply, val_main_cst_4_apply, val_main_cst_5_apply,
    i1, i4, il, ir, Ideal.hostPowf_def, Ideal.hostDivf_def, Ideal.addf_def, Ideal.subf_def, Ideal.mulf_def,
    Ideal.ofBits_def, Ideal.ofBits_zero_f32, zero_add]
  exact pow_one _

/-- The reference's result at `(b, k)` is the soft assignment of point `b` to centre `k`. -/
theorem result_apply (b : Fin 262144) (k : Fin 256) :
    val_main_v25 (F := Ideal) X C (ix2 b k) = soft (fun d => X (ix2 b d)) (fun k d => C (ix2 k d)) k := by
  have i24 : idx_main_v23 (idx_main_v24 (ix2 b k)) = ix1 b :=
    funext fun a => Fin.ext (by match a with | ⟨0, _⟩ => rfl)
  have i22 : ∀ k' : Fin 256, idx_main_v22 (ix1 b) k' = ix2 b k' := fun k' =>
    funext fun a => Fin.ext (by match a with | ⟨0, _⟩ => rfl | ⟨1, _⟩ => rfl)
  rw [val_main_v25_apply, val_main_v24_apply, val_main_v23_apply, val_main_v22_apply, i24]
  simp only [i22, kern_apply, val_main_cst_6_apply, Ideal.ofBits_def, Ideal.ofBits_zero_f32, zero_add,
    Ideal.hostDivf_def]
  rfl

/-- The reference's result is the soft assignment of every point to every centre. -/
theorem result_eq : val_main_v25 (F := Ideal) X C = result X C := by
  funext i
  obtain ⟨b, k, rfl⟩ : ∃ (b : Fin 262144) (k : Fin 256), i = ix2 b k := ⟨i 0, i 1, eq_ix2 i⟩
  rw [result_ix2]
  exact result_apply X C b k

end Cert.ReferenceIdeal.SoftValue

end
-- ==== Proof.lean ====
/-
  Soft assignment of 262144 points to 256 centres by a student-t kernel: the tiled kernel against the whole-array
  reference, on the extended reals.

  Both programs compute, for point `b` and centre `k`, the squared distance spelt `|x_b|² + |c_k|² − 2 · (x_b · c_k)`,
  its kernel `1 / (1 + d / 1)`, and the kernel over the sum of the 256 kernels of point `b`. The tiled program does
  it on blocks of 4096 points with a matrix product for the inner products and lane sums for the squared lengths and
  the normaliser; the reference on the whole arrays with a product against the transposed centres, host sums, and
  one more operation, a power with exponent `1.0`. On the extended reals a change of float format is the identity, a
  matrix product into a zero accumulator and a host product are the same sum over the contracted coordinate, a lane
  sum and a host sum from zero are the same sum, and `a ^ 1 = a` for every `a`, `⊥` and `⊤` included. The operations and
  their order being otherwise the same, the two results are one function of the arguments, entry by entry, with no
  appeal to the inputs being finite. Nothing in the kernel was rewritten to read it on the extended reals: the idealized
  kernel is the kernel's own text.
-/
import proofs.«170498_j20873541059056_1_alg».proof.Defs
import proofs.«170498_j20873541059056_1_alg».proof.Proof.Gen.Kernel
import proofs.«170498_j20873541059056_1_alg».proof.Proof.Gen.Kernel.Skeleton
import proofs.«170498_j20873541059056_1_alg».proof.Proof.Gen.Kernel.Launch
import proofs.«170498_j20873541059056_1_alg».proof.Proof.Gen.Kernel.Points
import proofs.«170498_j20873541059056_1_alg».proof.Proof.Gen.Kernel.Frame
import proofs.«170498_j20873541059056_1_alg».proof.Proof.Gen.KernelIdeal
import proofs.«170498_j20873541059056_1_alg».proof.Proof.Gen.KernelIdeal.Skeleton
import proofs.«170498_j20873541059056_1_alg».proof.Proof.Gen.KernelIdeal.Launch
import proofs.«170498_j20873541059056_1_alg».proof.Proof.Gen.KernelIdeal.Points
import proofs.«170498_j20873541059056_1_alg».proof.Proof.Gen.KernelIdeal.Frame
import proofs.«170498_j20873541059056_1_alg».proof.Proof.Gen.ReferenceIdeal
import proofs.«170498_j20873541059056_1_alg».proof.Proof.Gen.Pre_finite_inputs
import proofs.«170498_j20873541059056_1_alg».proof.Proof.Gen.KernelIdeal.Value
import proofs.«170498_j20873541059056_1_alg».proof.Proof.Gen.ReferenceIdeal.Run
import proofs.«170498_j20873541059056_1_alg».proof.Proof.Gen.ReferenceIdeal.Read
import proofs.«170498_j20873541059056_1_alg».proof.Proof.KernelValue
import proofs.«170498_j20873541059056_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result dropped: it terminates and leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten to idealize it. -/
theorem preserves : Cert.preserves_Kernel_KernelIdeal := trivial

/-- From arguments that agree, the kernel's result array and the reference's both end at the soft assignment of every
    point to every centre. -/
theorem algebraic : Cert.algebraic_KernelIdeal_ReferenceIdeal := by
  intro m ρ m' ρ' _ hagree
  refine ⟨fun c => Cert.KernelIdeal.SoftRun.whole m c, Cert.KernelIdeal.SoftRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.SoftValue.result_eq, (hagree c).1,
    (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
